-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S155648x64 : Shape := ⟨2, ![155648, 64]⟩
abbrev S2x2957312 : Shape := ⟨2, ![2, 2957312]⟩
abbrev S361 : Shape := ⟨1, ![361]⟩
abbrev S64x64 : Shape := ⟨2, ![64, 64]⟩
abbrev S64 : Shape := ⟨1, ![64]⟩
abbrev S_ : Shape := ⟨0, ![]⟩

class Facts : Prop where
  bcast_S_S155648x64 : S_.BroadcastsInDim S155648x64 (![] : Fin 0 → Fin S155648x64.rank)
  reducesTo_S155648x64_S_d0_1 : S155648x64.ReducesTo [0, 1] S_
  h_S_ : 0 < S_.numel
  bcast_S_S361 : S_.BroadcastsInDim S361 (![] : Fin 0 → Fin S361.rank)
  reducesTo_S361_S_d0 : S361.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S155648x64 .f32) (main_arg1 : IVec S2x2957312 32) (main_arg2 : FVec F S361 .f32) (main_arg3 : FVec F S64x64 .f32) (main_arg4 : FVec F S64 .f32) (main_arg5 : FVec F S64x64 .f32) : IVec S_ 1 :=
  let main_v0 : FVec F S155648x64 .f32 := Host.absf main_arg0
  let main_cst : FVec F S_ .f32 := constant S_ .f32 0x7F800000#32
  let main_v1 : FVec F S155648x64 .f32 := broadcastInDim S155648x64 ![] bcast_S_S155648x64 main_cst
  let main_v2 : IVec S155648x64 1 := cmpf .olt main_v0 main_v1
  let main_c : IVec S_ 1 := constantI S_ 1 1#1
  let main_v3 : IVec S_ 1 := (fun x v => Host.reduce IntOp.andi x v reducesTo_S155648x64_S_d0_1 h_S_) main_v2 main_c
  let main_v4 : FVec F S361 .f32 := Host.absf main_arg2
  let main_cst_0 : FVec F S_ .f32 := constant S_ .f32 0x7F800000#32
  let main_v5 : FVec F S361 .f32 := broadcastInDim S361 ![] bcast_S_S361 main_cst_0
  let main_v6 : IVec S361 1 := cmpf .olt main_v4 main_v5
  let main_c_1 : IVec S_ 1 := constantI S_ 1 1#1
  let main_v7 : IVec S_ 1 := (fun x v => Host.reduce IntOp.andi x v reducesTo_S361_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S155648x64 : Shape := ⟨2, ![155648, 64]⟩
abbrev S2x2957312 : Shape := ⟨2, ![2, 2957312]⟩
abbrev S361 : Shape := ⟨1, ![361]⟩
abbrev S64x64 : Shape := ⟨2, ![64, 64]⟩
abbrev S64 : Shape := ⟨1, ![64]⟩
abbrev S1x361 : Shape := ⟨2, ![1, 361]⟩
abbrev S8192x361 : Shape := ⟨2, ![8192, 361]⟩
abbrev S2957312 : Shape := ⟨1, ![2957312]⟩
abbrev S1x2957312 : Shape := ⟨2, ![1, 2957312]⟩
abbrev S_ : Shape := ⟨0, ![]⟩
abbrev S2957312x1 : Shape := ⟨2, ![2957312, 1]⟩
abbrev S2957312x64 : Shape := ⟨2, ![2957312, 64]⟩
abbrev S1x64 : Shape := ⟨2, ![1, 64]⟩
abbrev S8192x64 : Shape := ⟨2, ![8192, 64]⟩

abbrev nBuf : Space → Nat
  | .hbm => 33
  | .vmem => 9
  | .smem => 0
  | _ => 0

abbrev bufTy : (tb : Table) → Fin (tcTables nBuf tb) → BufTy
  | .hbm, ⟨0, _⟩ => ⟨S155648x64, .f32⟩
  | .hbm, ⟨1, _⟩ => ⟨S2x2957312, .i32⟩
  | .hbm, ⟨2, _⟩ => ⟨S361, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S1x361, .f32⟩
  | .hbm, ⟨7, _⟩ => ⟨S8192x361, .f32⟩
  | .hbm, ⟨8, _⟩ => ⟨S2957312, .f32⟩
  | .hbm, ⟨9, _⟩ => ⟨S1x2957312, .i32⟩
  | .hbm, ⟨10, _⟩ => ⟨S2957312, .i32⟩
  | .hbm, ⟨11, _⟩ => ⟨S1x2957312, .i32⟩
  | .hbm, ⟨12, _⟩ => ⟨S2957312, .i32⟩
  | .hbm, ⟨13, _⟩ => ⟨S_, .i32⟩
  | .hbm, ⟨14, _⟩ => ⟨S2957312, .i32⟩
  | .hbm, ⟨15, _⟩ => ⟨S2957312, .i1⟩
  | .hbm, ⟨16, _⟩ => ⟨S_, .i32⟩
  | .hbm, ⟨17, _⟩ => ⟨S2957312, .i32⟩
  | .hbm, ⟨18, _⟩ => ⟨S2957312, .i32⟩
  | .hbm, ⟨19, _⟩ => ⟨S2957312, .i32⟩
  | .hbm, ⟨20, _⟩ => ⟨S2957312x1, .i32⟩
  | .hbm, ⟨21, _⟩ => ⟨S2957312x64, .f32⟩
  | .hbm, ⟨22, _⟩ => ⟨S2957312x1, .f32⟩
  | .hbm, ⟨23, _⟩ => ⟨S2957312x64, .f32⟩
  | .hbm, ⟨24, _⟩ => ⟨S2957312x64, .f32⟩
  | .hbm, ⟨25, _⟩ => ⟨S_, .f32⟩
  | .hbm, ⟨26, _⟩ => ⟨S155648x64, .f32⟩
  | .hbm, ⟨27, _⟩ => ⟨S2957312x1, .i32⟩
  | .hbm, ⟨28, _⟩ => ⟨S155648x64, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S155648x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S8192x64, .f32⟩
  | .local _ .vmem, ⟨8, _⟩ => ⟨S8192x64, .f32⟩
  | _, _ => ⟨S155648x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S361_S1x361 : S361.ShapeCasts S1x361
  bcast_S1x361_S8192x361_0_1 : S1x361.BroadcastsInDim S8192x361 (![0, 1] : Fin 2 → Fin S8192x361.rank)
  shapeCasts_S8192x361_S2957312 : S8192x361.ShapeCasts S2957312
  slices_S2x2957312_S1x2957312_0_0 : S2x2957312.Slices ![0, 0] S1x2957312
  shapeCasts_S1x2957312_S2957312 : S1x2957312.ShapeCasts S2957312
  slices_S2x2957312_S1x2957312_1_0 : S2x2957312.Slices ![1, 0] S1x2957312
  bcast_S_S2957312 : S_.BroadcastsInDim S2957312 (![] : Fin 0 → Fin S2957312.rank)
  bcast_S2957312_S2957312x1_0 : S2957312.BroadcastsInDim S2957312x1 (![0] : Fin 1 → Fin S2957312x1.rank)
  bcast_S2957312x1_S2957312x64_0_1 : S2957312x1.BroadcastsInDim S2957312x64 (![0, 1] : Fin 2 → Fin S2957312x64.rank)
  bcast_S_S155648x64 : S_.BroadcastsInDim S155648x64 (![] : Fin 0 → Fin S155648x64.rank)
  transposes_S64x64_S64x64_1_0 : S64x64.Transposes [1, 0] S64x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  gather_S155648x64_S2957312x1_S2957312x64_1_0_n_n_0_1_164_wf : GatherDims.WF S155648x64 S2957312x1 S2957312x64 [1] [0] [] [0] [] 1 ![1, 64]
  scatter_S155648x64_S2957312x1_S2957312x64_1_0_0_1_wf : ScatterDims.WF S155648x64 S2957312x1 S2957312x64 [1] [0] [0] 1
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S155648x64.size a
  hwx0_0 : ∀ i : grid0.Coords, EltTy.bits .f32 = 32 ∨ (Rect.block (s := S155648x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S155648x64.size a
  hwx0_1 : ∀ i : grid0.Coords, EltTy.bits .f32 = 32 ∨ (Rect.block (s := S155648x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S155648x64.size a
  hwx0_5 : ∀ i : grid0.Coords, EltTy.bits .f32 = 32 ∨ (Rect.block (s := S155648x64) S8192x64.size (cc0_transform_5 i) (hinb0_5 i)).WholeWords (EltTy.packing .f32)

variable [Facts₀]

def gather_S155648x64_S2957312x1_S2957312x64_1_0_n_n_0_1_164 : GatherDims S155648x64 S2957312x1 S2957312x64 where
  offsetDims := [1]
  collapsedSliceDims := [0]
  operandBatchingDims := []
  startIndicesBatchingDims := []
  startIndexMap := [0]
  indexVectorDim := 1
  sliceSizes := ![1, 64]
  wf := gather_S155648x64_S2957312x1_S2957312x64_1_0_n_n_0_1_164_wf
def scatter_S155648x64_S2957312x1_S2957312x64_1_0_0_1 : ScatterDims S155648x64 S2957312x1 S2957312x64 where
  updateWindowDims := [1]
  insertedWindowDims := [0]
  scatterDimsToOperandDims := [0]
  indexVectorDim := 1
  wf := scatter_S155648x64_S2957312x1_S2957312x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v19) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S155648x64 : Shape := ⟨2, ![155648, 64]⟩
abbrev S2x2957312 : Shape := ⟨2, ![2, 2957312]⟩
abbrev S361 : Shape := ⟨1, ![361]⟩
abbrev S64x64 : Shape := ⟨2, ![64, 64]⟩
abbrev S64 : Shape := ⟨1, ![64]⟩
abbrev S1x361 : Shape := ⟨2, ![1, 361]⟩
abbrev S8192x361 : Shape := ⟨2, ![8192, 361]⟩
abbrev S2957312 : Shape := ⟨1, ![2957312]⟩
abbrev S1x2957312 : Shape := ⟨2, ![1, 2957312]⟩
abbrev S_ : Shape := ⟨0, ![]⟩
abbrev S2957312x1 : Shape := ⟨2, ![2957312, 1]⟩
abbrev S2957312x64 : Shape := ⟨2, ![2957312, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S155648x64, .f32⟩
  | .hbm, ⟨1, _⟩ => ⟨S2x2957312, .i32⟩
  | .hbm, ⟨2, _⟩ => ⟨S361, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S1x361, .f32⟩
  | .hbm, ⟨7, _⟩ => ⟨S8192x361, .f32⟩
  | .hbm, ⟨8, _⟩ => ⟨S2957312, .f32⟩
  | .hbm, ⟨9, _⟩ => ⟨S1x2957312, .i32⟩
  | .hbm, ⟨10, _⟩ => ⟨S2957312, .i32⟩
  | .hbm, ⟨11, _⟩ => ⟨S1x2957312, .i32⟩
  | .hbm, ⟨12, _⟩ => ⟨S2957312, .i32⟩
  | .hbm, ⟨13, _⟩ => ⟨S_, .i32⟩
  | .hbm, ⟨14, _⟩ => ⟨S2957312, .i32⟩
  | .hbm, ⟨15, _⟩ => ⟨S2957312, .i1⟩
  | .hbm, ⟨16, _⟩ => ⟨S_, .i32⟩
  | .hbm, ⟨17, _⟩ => ⟨S2957312, .i32⟩
  | .hbm, ⟨18, _⟩ => ⟨S2957312, .i32⟩
  | .hbm, ⟨19, _⟩ => ⟨S2957312, .i32⟩
  | .hbm, ⟨20, _⟩ => ⟨S2957312x1, .i32⟩
  | .hbm, ⟨21, _⟩ => ⟨S2957312x64, .f32⟩
  | .hbm, ⟨22, _⟩ => ⟨S2957312x1, .f32⟩
  | .hbm, ⟨23, _⟩ => ⟨S2957312x64, .f32⟩
  | .hbm, ⟨24, _⟩ => ⟨S2957312x64, .f32⟩
  | .hbm, ⟨25, _⟩ => ⟨S_, .f32⟩
  | .hbm, ⟨26, _⟩ => ⟨S155648x64, .f32⟩
  | .hbm, ⟨27, _⟩ => ⟨S2957312x1, .i32⟩
  | .hbm, ⟨28, _⟩ => ⟨S155648x64, .f32⟩
  | .hbm, ⟨29, _⟩ => ⟨S64x64, .f32⟩
  | .hbm, ⟨30, _⟩ => ⟨S155648x64, .f32⟩
  | .hbm, ⟨31, _⟩ => ⟨S1x64, .f32⟩
  | .hbm, ⟨32, _⟩ => ⟨S155648x64, .f32⟩
  | .hbm, ⟨33, _⟩ => ⟨S155648x64, .f32⟩
  | .hbm, ⟨34, _⟩ => ⟨S64x64, .f32⟩
  | .hbm, ⟨35, _⟩ => ⟨S155648x64, .f32⟩
  | .hbm, ⟨36, _⟩ => ⟨S155648x64, .f32⟩
  | _, _ => ⟨S155648x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S361_S1x361 : S361.ShapeCasts S1x361
  bcast_S1x361_S8192x361_0_1 : S1x361.BroadcastsInDim S8192x361 (![0, 1] : Fin 2 → Fin S8192x361.rank)
  shapeCasts_S8192x361_S2957312 : S8192x361.ShapeCasts S2957312
  slices_S2x2957312_S1x2957312_0_0 : S2x2957312.Slices ![0, 0] S1x2957312
  shapeCasts_S1x2957312_S2957312 : S1x2957312.ShapeCasts S2957312
  slices_S2x2957312_S1x2957312_1_0 : S2x2957312.Slices ![1, 0] S1x2957312
  bcast_S_S2957312 : S_.BroadcastsInDim S2957312 (![] : Fin 0 → Fin S2957312.rank)
  bcast_S2957312_S2957312x1_0 : S2957312.BroadcastsInDim S2957312x1 (![0] : Fin 1 → Fin S2957312x1.rank)
  bcast_S2957312x1_S2957312x64_0_1 : S2957312x1.BroadcastsInDim S2957312x64 (![0, 1] : Fin 2 → Fin S2957312x64.rank)
  bcast_S_S155648x64 : S_.BroadcastsInDim S155648x64 (![] : Fin 0 → Fin S155648x64.rank)
  transposes_S64x64_S64x64_1_0 : S64x64.Transposes [1, 0] S64x64
  bcast_S64_S1x64_1 : S64.BroadcastsInDim S1x64 (![1] : Fin 1 → Fin S1x64.rank)
  bcast_S1x64_S155648x64_0_1 : S1x64.BroadcastsInDim S155648x64 (![0, 1] : Fin 2 → Fin S155648x64.rank)
  gather_S155648x64_S2957312x1_S2957312x64_1_0_n_n_0_1_164_wf : GatherDims.WF S155648x64 S2957312x1 S2957312x64 [1] [0] [] [0] [] 1 ![1, 64]
  scatter_S155648x64_S2957312x1_S2957312x64_1_0_0_1_wf : ScatterDims.WF S155648x64 S2957312x1 S2957312x64 [1] [0] [0] 1
  dot_S155648x64_S64x64_S155648x64_1_0_0_1_n_n_wf : DotDims.WF S155648x64 S64x64 S155648x64 [1] [0] [0] [1] [] []

variable [Facts₀]

def gather_S155648x64_S2957312x1_S2957312x64_1_0_n_n_0_1_164 : GatherDims S155648x64 S2957312x1 S2957312x64 where
  offsetDims := [1]
  collapsedSliceDims := [0]
  operandBatchingDims := []
  startIndicesBatchingDims := []
  startIndexMap := [0]
  indexVectorDim := 1
  sliceSizes := ![1, 64]
  wf := gather_S155648x64_S2957312x1_S2957312x64_1_0_n_n_0_1_164_wf
def scatter_S155648x64_S2957312x1_S2957312x64_1_0_0_1 : ScatterDims S155648x64 S2957312x1 S2957312x64 where
  updateWindowDims := [1]
  insertedWindowDims := [0]
  scatterDimsToOperandDims := [0]
  indexVectorDim := 1
  wf := scatter_S155648x64_S2957312x1_S2957312x64_1_0_0_1_wf
def dot_S155648x64_S64x64_S155648x64_1_0_0_1_n_n : DotDims S155648x64 S64x64 S155648x64 where
  lhsContracting := [1]
  rhsContracting := [0]
  lhsNonContracting := [0]
  rhsNonContracting := [1]
  lhsBatch := []
  rhsBatch := []
  wf := dot_S155648x64_S64x64_S155648x64_1_0_0_1_n_n_wf

class Facts : Prop extends Facts₀ where

variable [Facts]
-- ==== Proof.Combine.lean ====
/-
  The dense half of a graph convolution, as one function of whole arrays.

  For node features `X` and aggregated neighbour messages `A`, both [155648, 64], two 64×64 weight
  matrices `Wr`, `Wo` given already transposed (row = input channel, column = output channel) and a
  bias `b` of 64 entries, the layer's output at node `r`, channel `j` is

      out[r, j] = (∑ₖ A[r, k] · Wr[k, j]  +  ∑ₖ X[r, k] · Wo[k, j])  +  b[j].

  Everything is read over the extended reals. The only algebra the certificate needs is that the
  three summands may be grouped either way, `(s + u) + b = (s + b) + u`: addition of extended
  reals is commutative and associative, infinities included, so no finiteness is used.
-/
import Idealize.ShloMosaic.PureOps.Ideal
import Idealize.ShloMosaic.Lib.ValueIdx

noncomputable section

namespace Cert.GraphConv

open Idealize.ShloMosaic Idealize.ShloMosaic.ValueIdx

/-- Node-by-channel arrays, [155648, 64]. -/
abbrev SNodes : Shape := ⟨2, ![155648, 64]⟩
/-- Channel-by-channel weight matrices, [64, 64]. -/
abbrev SWeights : Shape := ⟨2, ![64, 64]⟩

/-- The layer's output: row `r` of `A` through `Wr`, plus row `r` of `X` through `Wo`, plus the bias. -/
def combine (A X : SNodes.Idx → EReal) (Wr Wo : SWeights.Idx → EReal) (b : Fin 64 → EReal) : SNodes.Idx → EReal :=
  fun i => (∑ k : Fin 64, A (ix2 (i 0) k) * Wr (ix2 k (i 1)) + ∑ k : Fin 64, X (ix2 (i 0) k) * Wo (ix2 k (i 1))) + b (i 1)

/-- The same value with the bias added before the second product: the grouping the plain
    `A·Wr + b + X·Wo` evaluates in. -/
theorem combine_apply_bias_first (A X : SNodes.Idx → EReal) (Wr Wo : SWeights.Idx → EReal) (b : Fin 64 → EReal) (i : SNodes.Idx) :
    (∑ k : Fin 64, A (ix2 (i 0) k) * Wr (ix2 k (i 1)) + b (i 1)) + ∑ k : Fin 64, X (ix2 (i 0) k) * Wo (ix2 k (i 1))
      = combine A X Wr Wo b i := by
  unfold combine
  exact add_right_comm _ _ _

end Cert.GraphConv

end
-- ==== Proof.RefValue.lean ====
/-
  The reference's result, index by index, is `combine`.

  The reference computes `agg · W_relᵀ + b + x · W_rootᵀ` over whole arrays: a contraction over the 64
  input channels of the aggregated messages with the transposed relation weights, the bias broadcast over
  the rows, then the same contraction of the node features with the transposed root weights. Read at node
  `r`, channel `j` this is `(∑ₖ agg[r,k]·Wr[k,j] + b[j]) + ∑ₖ x[r,k]·Wo[k,j]`, which is `combine` with the
  bias moved to the end. The aggregated messages (a gather, a scaling and a scatter-add over the edge list)
  are carried as one unopened function of the arguments.
-/
import proofs.«176338_j63651415327483_1_alg».proof.Proof.Gen.ReferenceIdeal.Read
import proofs.«176338_j63651415327483_1_alg».proof.Proof.Combine

noncomputable section

namespace Cert.ReferenceIdeal.RefValue

open Cert.ReferenceIdeal Cert.ReferenceIdeal.Read Idealize.ShloMosaic Idealize.ShloMosaic.ValueIdx

/-- The reference's last stage is `combine` of the aggregated messages, the node features, the two transposed
    weight matrices and the bias. -/
theorem result_eq (x0 : (⟨S155648x64, .f32⟩ : BufTy).Contents (Elt Ideal)) (x1 : (⟨S2x2957312, .i32⟩ : BufTy).Contents (Elt Ideal))
    (x2 : (⟨S361, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) :
    val_main_v27 (F := Ideal) x0 x1 x2 x3 x4 x5
      = Cert.GraphConv.combine (val_main_v19 (F := Ideal) x0 x1 x2) x0 (val_main_v20 (F := Ideal) x3) (val_main_v25 (F := Ideal) x5)
          (fun q => x4 (ix1 q)) := by
  funext i
  -- the operand indices of the two contractions and of the bias, in coordinates
  have eL21 : ∀ k : Fin 64, lidx_main_v21 i k = ix2 (i 0) k := fun k =>
    funext fun a => Fin.ext (by match a with | ⟨0, _⟩ => rfl | ⟨1, _⟩ => rfl)
  have eR21 : ∀ k : Fin 64, ridx_main_v21 i k = ix2 k (i 1) := fun k =>
    funext fun a => Fin.ext (by match a with | ⟨0, _⟩ => rfl | ⟨1, _⟩ => rfl)
  have eL26 : ∀ k : Fin 64, lidx_main_v26 i k = ix2 (i 0) k := fun k =>
    funext fun a => Fin.ext (by match a with | ⟨0, _⟩ => rfl | ⟨1, _⟩ => rfl)
  have eR26 : ∀ k : Fin 64, ridx_main_v26 i k = ix2 k (i 1) := fun k =>
    funext fun a => Fin.ext (by match a with | ⟨0, _⟩ => rfl | ⟨1, _⟩ => rfl)
  have eB : idx_main_v22 (idx_main_v23 i) = ix1 (i 1) :=
    funext fun a => Fin.ext (by match a with | ⟨0, _⟩ => rfl)
  rw [val_main_v27_apply, val_main_v24_apply, val_main_v21_apply, val_main_v26_apply, val_main_v23_apply, val_main_v22_apply]
  simp only [eL21, eR21, eL26, eR26, eB]
  exact Cert.GraphConv.combine_apply_bias_first (val_main_v19 (F := Ideal) x0 x1 x2) x0 (val_main_v20 (F := Ideal) x3)
    (val_main_v25 (F := Ideal) x5) (fun q => x4 (ix1 q)) i

end Cert.ReferenceIdeal.RefValue

end
-- ==== Proof.BlockValue.lean ====
/-
  One block of the kernel's output, index by index.

  At a grid point the body holds an 8192-row block `a` of the aggregated messages, the matching block `x` of
  the node features, the two whole 64×64 transposed weight matrices `wr`, `wo` and the bias row `b` [1, 64]. It
  multiplies `a` by `wr` and `x` by `wo` on the matrix unit, each into a zero accumulator, adds the two
  products and then the bias row broadcast down the rows. Over the extended reals the narrowing of the
  operands to bf16 is the identity and a product into a zero accumulator is the plain sum over the 64 input
  channels, so the stored block at row `p`, channel `q` is

      (∑ₖ a[p,k]·wr[k,q] + ∑ₖ x[p,k]·wo[k,q]) + b[0,q].
-/
import proofs.«176338_j63651415327483_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- The left operand's index for output entry `i` and contracted coordinate `g`: its row is the output's row. -/
theorem lhs_row (i : S8192x64.Idx) (g : dot_S8192x64_S64x64_S8192x64_1_0_0_1_n_n.contr.Idx) :
    (dot_S8192x64_S64x64_S8192x64_1_0_0_1_n_n.lhsIdx i g 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
/-- Its column is the contracted coordinate. -/
theorem lhs_col (i : S8192x64.Idx) (g : dot_S8192x64_S64x64_S8192x64_1_0_0_1_n_n.contr.Idx) :
    (dot_S8192x64_S64x64_S8192x64_1_0_0_1_n_n.lhsIdx i g 1).val = (g ⟨0, by decide⟩).val :=
  dot_S8192x64_S64x64_S8192x64_1_0_0_1_n_n.lhsIdx_val_of_single rfl i g
/-- The right operand's row is the contracted coordinate, -/
theorem rhs_row (i : S8192x64.Idx) (g : dot_S8192x64_S64x64_S8192x64_1_0_0_1_n_n.contr.Idx) :
    (dot_S8192x64_S64x64_S8192x64_1_0_0_1_n_n.rhsIdx i g 0).val = (g ⟨0, by decide⟩).val :=
  dot_S8192x64_S64x64_S8192x64_1_0_0_1_n_n.rhsIdx_val_of_single rfl i g
/-- and its column the output's column. -/
theorem rhs_col (i : S8192x64.Idx) (g : dot_S8192x64_S64x64_S8192x64_1_0_0_1_n_n.contr.Idx) :
    (dot_S8192x64_S64x64_S8192x64_1_0_0_1_n_n.rhsIdx i g 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- A block of 8192 rows times a 64×64 matrix, accumulated from zero: entry (p, q) is the sum over the
    contracted channel `k` of `l[p,k] · r[k,q]`. -/
theorem matmul_zero_apply (l : FVec Ideal S8192x64 .bf16) (r : FVec Ideal S64x64 .bf16) (p : Fin 8192) (q : Fin 64) :
    matmul (F := Ideal) dot_S8192x64_S64x64_S8192x64_1_0_0_1_n_n none l r (constant (F := Ideal) S8192x64 .f32 0x00000000#32) (ix2 p q)
      = ∑ k : Fin 64, l (ix2 p k) * r (ix2 k q) := by
  simp only [matmul]
  rw [Ideal.matmul_constant_zero_apply,
    ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q)
      ((contrEquiv1 dot_S8192x64_S64x64_S8192x64_1_0_0_1_n_n 64 rfl rfl).symm k) = ix2 p k := funext fun a => Fin.ext (by
    match a with
    | ⟨0, _⟩ => exact lhs_row _ _
    | ⟨1, _⟩ => exact (lhs_col _ _).trans hk)
  have er : dot_S8192x64_S64x64_S8192x64_1_0_0_1_n_n.rhsIdx (ix2 p q)
      ((contrEquiv1 dot_S8192x64_S64x64_S8192x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row broadcast down the 8192 rows reads, at (p, q), the row's entry `q`. -/
theorem bias_rows_apply (b : Vec Ideal S1x64 .f32) (p : Fin 8192) (q : Fin 64) :
    broadcastTo S8192x64 b broadcasts_S1x64_S8192x64 (ix2 p q) = b (ix2 (0 : Fin 1) q) :=
  broadcastTo_apply b broadcasts_S1x64_S8192x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- The stored block at row `p`, channel `q`. -/
theorem stored_apply (a x : Vec Ideal S8192x64 .f32) (wr wo : Vec Ideal S64x64 .f32) (b : Vec Ideal S1x64 .f32)
    (p : Fin 8192) (q : Fin 64) :
    k0_pay1 (F := Ideal) a x wr wo b (ix2 p q)
      = (∑ k : Fin 64, a (ix2 p k) * wr (ix2 k q) + ∑ k : Fin 64, x (ix2 p k) * wo (ix2 k q)) + b (ix2 (0 : Fin 1) q) := by
  unfold k0_pay1
  simp only [shapeCast_self]
  refine congrArg₂ (· + ·) (congrArg₂ (· + ·) ?_ ?_) ?_
  · exact matmul_zero_apply _ _ p q
  · exact matmul_zero_apply _ _ p q
  · exact bias_rows_apply b p q

/-- The same at any index of the block. -/
theorem stored_at (a x : Vec Ideal S8192x64 .f32) (wr wo : Vec Ideal S64x64 .f32) (b : Vec Ideal S1x64 .f32)
    (j : S8192x64.Idx) :
    k0_pay1 (F := Ideal) a x wr wo b j
      = (∑ k : Fin 64, a (ix2 (j 0) k) * wr (ix2 k (j 1)) + ∑ k : Fin 64, x (ix2 (j 0) k) * wo (ix2 k (j 1)))
        + b (ix2 (0 : Fin 1) (j 1)) :=
  (congrArg (k0_pay1 (F := Ideal) a x wr wo b) (eq_ix2 j)).trans (stored_apply a x wr wo b (j 0) (j 1))

end Cert.KernelIdeal.BlockValue

end
-- ==== Proof.ArrayValue.lean ====
/-
  From blocks to the whole output array.

  The grid has 19 points; point `t` works on rows `8192·t … 8192·t + 8191`. Its two streamed inputs are
  those rows of the aggregated messages and of the node features, its three resident inputs are the whole
  weight matrices and the whole bias row, and it writes back those rows of the output. So what point `t`
  writes back is rows `8192·t …` of ONE function of the arrays as the region finds them — `combine` of the
  aggregated messages, the node features, the two transposed weight matrices and the bias row — and since
  the 19 row blocks tile the 155648 rows, the output array ends holding that function everywhere.
-/
import proofs.«176338_j63651415327483_1_alg».proof.Proof.Gen.KernelIdeal.Value
import proofs.«176338_j63651415327483_1_alg».proof.Proof.BlockValue
import proofs.«176338_j63651415327483_1_alg».proof.Proof.Combine
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index of every window at every grid point: the two streamed inputs and the output move down
    the rows with the point, the weights and the bias stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array as one function of the arrays the region finds: the aggregated messages `main_v19`, the
    node features `main_arg0`, the transposed weights `main_v20`, `main_v21`, the bias row `main_v22`. -/
def result (c : Dev nD) : S155648x64.Idx → EReal :=
  Cert.GraphConv.combine (V m c main_v19) (V m c main_arg0) (V m c main_v20) (V m c main_v21)
    (fun q => V m c main_v22 (ix2 (0 : Fin 1) q))

/-! ## Reading a block of an array

Each of these is about the windows' geometry only: the array is any function `G` of its index. -/

/-- Entry `y` of the first window's block at point `t` is the array's entry 8192·t rows further down. -/
theorem read_rows0 (G : S155648x64.Idx → EReal) (t : Fin cfg0.N) (y : S8192x64.Idx) (i : S155648x64.Idx)
    (h0 : (i 0).val = t.val * 8192 + (y 0).val) (h1 : (i 1).val = (y 1).val) :
    ((cfg0.win 0).blk t).view.read (Elt Ideal) G y = G i := by
  obtain ⟨e0, e1, -⟩ := block_index t
  show G (((cfg0.win 0).blk t).view.emb y) = G i
  refine congrArg G (funext fun a => Fin.ext ?_)
  match a with
  | ⟨0, _⟩ => show win0_0.index t (0 : Fin 2) * 8192 + 1 * (y 0).val = (i 0).val; omega
  | ⟨1, _⟩ => show win0_0.index t (1 : Fin 2) * 64 + 1 * (y 1).val = (i 1).val; omega

/-- The same for the second window. -/
theorem read_rows1 (G : S155648x64.Idx → EReal) (t : Fin cfg0.N) (y : S8192x64.Idx) (i : S155648x64.Idx)
    (h0 : (i 0).val = t.val * 8192 + (y 0).val) (h1 : (i 1).val = (y 1).val) :
    ((cfg0.win 1).blk t).view.read (Elt Ideal) G y = G i := by
  obtain ⟨-, -, e0, e1, -⟩ := block_index t
  show G (((cfg0.win 1).blk t).view.emb y) = G i
  refine congrArg G (funext fun a => Fin.ext ?_)
  match a with
  | ⟨0, _⟩ => show win0_1.index t (0 : Fin 2) * 8192 + 1 * (y 0).val = (i 0).val; omega
  | ⟨1, _⟩ => show win0_1.index t (1 : Fin 2) * 64 + 1 * (y 1).val = (i 1).val; omega

/-- The third window's block is its whole 64×64 array at every point. -/
theorem read_whole2 (G : S64x64.Idx → EReal) (t : Fin cfg0.N) (y i : S64x64.Idx)
    (h0 : (i 0).val = (y 0).val) (h1 : (i 1).val = (y 1).val) :
    ((cfg0.win 2).blk t).view.read (Elt Ideal) G y = G i := by
  obtain ⟨-, -, -, -, e0, e1, -⟩ := block_index t
  show G (((cfg0.win 2).blk t).view.emb y) = G i
  refine congrArg G (funext fun a => Fin.ext ?_)
  match a with
  | ⟨0, _⟩ => show win0_2.index t (0 : Fin 2) * 64 + 1 * (y 0).val = (i 0).val; omega
  | ⟨1, _⟩ => show win0_2.index t (1 : Fin 2) * 64 + 1 * (y 1).val = (i 1).val; omega

/-- So is the fourth window's. -/
theorem read_whole3 (G : S64x64.Idx → EReal) (t : Fin cfg0.N) (y i : S64x64.Idx)
    (h0 : (i 0).val = (y 0).val) (h1 : (i 1).val = (y 1).val) :
    ((cfg0.win 3).blk t).view.read (Elt Ideal) G y = G i := by
  obtain ⟨-, -, -, -, -, -, e0, e1, -⟩ := block_index t
  show G (((cfg0.win 3).blk t).view.emb y) = G i
  refine congrArg G (funext fun a => Fin.ext ?_)
  match a with
  | ⟨0, _⟩ => show win0_3.index t (0 : Fin 2) * 64 + 1 * (y 0).val = (i 0).val; omega
  | ⟨1, _⟩ => show win0_3.index t (1 : Fin 2) * 64 + 1 * (y 1).val = (i 1).val; omega

/-- And the fifth window's block is its whole [1, 64] row. -/
theorem read_whole4 (G : S1x64.Idx → EReal) (t : Fin cfg0.N) (y i : S1x64.Idx)
    (h0 : (i 0).val = (y 0).val) (h1 : (i 1).val = (y 1).val) :
    ((cfg0.win 4).blk t).view.read (Elt Ideal) G y = G i := by
  obtain ⟨-, -, -, -, -, -, -, -, e0, e1, -⟩ := block_index t
  show G (((cfg0.win 4).blk t).view.emb y) = G i
  refine congrArg G (funext fun a => Fin.ext ?_)
  match a with
  | ⟨0, _⟩ => show win0_4.index t (0 : Fin 2) * 1 + 1 * (y 0).val = (i 0).val; omega
  | ⟨1, _⟩ => show win0_4.index t (1 : Fin 2) * 64 + 1 * (y 1).val = (i 1).val; omega

/-- A block `X` written back at point `t` is block `t` of an array function `G` as soon as every entry of `X` is
    `G` at the index 8192·t rows further down. -/
theorem write_rows5 (G : S155648x64.Idx → EReal) (X : S8192x64.Idx → EReal) (t : Fin cfg0.N)
    (h : ∀ (j : S8192x64.Idx) (i : S155648x64.Idx), (i 0).val = t.val * 8192 + (j 0).val → (i 1).val = (j 1).val → X j = G i) :
    (cfg0.win 5).cut (grid0.coords t) X = ((cfg0.win 5).blk t).view.read (Elt Ideal) G := by
  obtain ⟨-, -, -, -, -, -, -, -, -, -, e0, e1⟩ := block_index t
  funext j
  show X _ = G (((cfg0.win 5).blk t).view.emb j)
  refine h _ _ ?_ ?_
  · show win0_5.index t (0 : Fin 2) * 8192 + 1 * (j 0).val = t.val * 8192 + (j 0).val; omega
  · show win0_5.index t (1 : Fin 2) * 64 + 1 * (j 1).val = (j 1).val; omega

/-! ## The input blocks, read off the arrays the region finds -/

theorem block_agg (c : Dev nD) (t : Fin cfg0.N) (y : S8192x64.Idx) (i : S155648x64.Idx)
    (h0 : (i 0).val = t.val * 8192 + (y 0).val) (h1 : (i 1).val = (y 1).val) :
    iblk m c 0 t y = V m c main_v19 i :=
  read_rows0 (V m c main_v19) t y i h0 h1

theorem block_x (c : Dev nD) (t : Fin cfg0.N) (y : S8192x64.Idx) (i : S155648x64.Idx)
    (h0 : (i 0).val = t.val * 8192 + (y 0).val) (h1 : (i 1).val = (y 1).val) :
    iblk m c 1 t y = V m c main_arg0 i :=
  read_rows1 (V m c main_arg0) t y i h0 h1

theorem block_wrel (c : Dev nD) (t : Fin cfg0.N) (y i : S64x64.Idx)
    (h0 : (i 0).val = (y 0).val) (h1 : (i 1).val = (y 1).val) :
    iblk m c 2 t y = V m c main_v20 i :=
  read_whole2 (V m c main_v20) t y i h0 h1

theorem block_wroot (c : Dev nD) (t : Fin cfg0.N) (y i : S64x64.Idx)
    (h0 : (i 0).val = (y 0).val) (h1 : (i 1).val = (y 1).val) :
    iblk m c 3 t y = V m c main_v21 i :=
  read_whole3 (V m c main_v21) t y i h0 h1

theorem block_bias (c : Dev nD) (t : Fin cfg0.N) (y i : S1x64.Idx)
    (h0 : (i 0).val = (y 0).val) (h1 : (i 1).val = (y 1).val) :
    iblk m c 4 t y = V m c main_v22 i :=
  read_whole4 (V m c main_v22) t y i h0 h1

/-! ## What a point writes back -/

/-- Entry `j` of the block stored at point `t` is `result` at the array index 8192·t rows further down: each
    factor of each product is the matching entry of the whole array. -/
theorem stored_eq (c : Dev nD) (t : Fin cfg0.N) (j : S8192x64.Idx) (i : S155648x64.Idx)
    (h0 : (i 0).val = t.val * 8192 + (j 0).val) (h1 : (i 1).val = (j 1).val) :
    k0_pay1 (F := Ideal) (iblk m c 0 t) (iblk m c 1 t) (iblk m c 2 t) (iblk m c 3 t) (iblk m c 4 t) j = result m c i := by
  refine (BlockValue.stored_at (iblk m c 0 t) (iblk m c 1 t) (iblk m c 2 t) (iblk m c 3 t) (iblk m c 4 t) j).trans ?_
  unfold result Cert.GraphConv.combine
  refine congrArg₂ (· + ·) (congrArg₂ (· + ·)
    (Finset.sum_congr rfl fun k _ => congrArg₂ (· * ·) ?_ ?_)
    (Finset.sum_congr rfl fun k _ => congrArg₂ (· * ·) ?_ ?_)) ?_
  · exact block_agg m c t (ix2 (j 0) k) (ix2 (i 0) k) h0 rfl
  · exact block_wrel m c t (ix2 k (j 1)) (ix2 k (i 1)) rfl h1
  · exact block_x m c t (ix2 (j 0) k) (ix2 (i 0) k) h0 rfl
  · exact block_wroot m c t (ix2 k (j 1)) (ix2 k (i 1)) rfl h1
  · exact block_bias m c t (ix2 (0 : Fin 1) (j 1)) (ix2 (0 : Fin 1) (i 1)) rfl h1

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S8192x64) origin, View.ld_unit_zero (S := S64x64) origin, View.ld_unit_zero (S := S1x64) origin]
  exact write_rows5 (result m c) _ t (stored_eq m c t)

/-! ## The row blocks tile the array -/

/-- An index of the array is in point `t`'s block iff each coordinate is in the block's range on its axis. -/
theorem mem_block (t : Fin cfg0.N) (i : S155648x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v23).slice (win0_5.rect t)).set ↔ _
  rw [View.set_slice_whole, Rect.mem_set_unit]
  exact Iff.rfl

/-- Row `r` lies in the block of point `r / 8192`. -/
theorem cover (i : S155648x64.Idx) : ∃ t : Fin cfg0.N, (cfg0.win 5).flush t = true ∧ i ∈ ((cfg0.win 5).blk t).view.set := by
  have hi0 : (i 0).val < 155648 := (i 0).isLt
  have hi1 : (i 1).val < 64 := (i 1).isLt
  have hN : cfg0.N = 19 := N_0
  have hlt : (i 0).val / 8192 < cfg0.N := by rw [hN]; omega
  refine ⟨⟨(i 0).val / 8192, hlt⟩, flush0_5 _, ?_⟩
  obtain ⟨-, -, -, -, -, -, -, -, -, -, e0, e1⟩ := block_index ⟨(i 0).val / 8192, hlt⟩
  rw [mem_block]
  intro a
  match a with
  | ⟨0, _⟩ =>
    show win0_5.index ⟨(i 0).val / 8192, hlt⟩ (0 : Fin 2) * 8192 ≤ (i 0).val ∧ (i 0).val < win0_5.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win0_5.index ⟨(i 0).val / 8192, hlt⟩ (1 : Fin 2) * 64 ≤ (i 1).val ∧ (i 1).val < win0_5.index ⟨(i 0).val / 8192, hlt⟩ (1 : Fin 2) * 64 + 64
    rw [e1]; omega

/-! ## The array after the run, and the run -/

/-- After the last point the output array is `result`. -/
theorem final (c : Dev nD) : (dats m 0 c).arrAt 5 cfg0.N = result m c :=
  (dats m 0 c).arrAt_eq_of_cover 5 (result m c) (fun t _ => flushed_eq m c t) cover

/-- Every weakly fair execution of the kernel's program terminates with the output array at `result` and the
    arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.HostPrefix.lean ====
/-
  What the region finds in its operand arrays.

  Before the kernel is launched the program computes, by the same operations as the reference, the
  aggregated messages (each edge gathers its source node's row, scales it by the edge's weight — the 361
  per-graph weights repeated over the 8192 graphs —, and the rows are summed into their destination nodes),
  transposes the two weight matrices and reshapes the bias to a row. So the five arrays the kernel's windows
  read are: the aggregated messages, the node features as launched, the two transposed weight matrices and
  the bias as a [1, 64] row. The aggregation is never opened: it is the reference's own stage, as one function
  of the three arguments it reads.
-/
import proofs.«176338_j63651415327483_1_alg».proof.Proof.Gen.KernelIdeal.Frame
import proofs.«176338_j63651415327483_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The first window's array holds the aggregated messages: the reference's scatter-add stage of the node
    features, the edge list and the edge weights. -/
theorem agg_eq (c : Dev nD) :
    (V m c main_v19 : S155648x64.Idx → EReal)
      = Cert.ReferenceIdeal.Read.val_main_v19 (F := Ideal) (m ((c : Thread nD τ).loc main_arg0))
          (m ((c : Thread nD τ).loc main_arg1)) (m ((c : Thread nD τ).loc main_arg2)) := by
  dsimp only [Gen.V, Gen.hostOps0]
  after_results_simp
  rfl

/-- The third window's array holds the transposed relation weights. -/
theorem wrel_eq (c : Dev nD) :
    (V m c main_v20 : S64x64.Idx → EReal)
      = Cert.ReferenceIdeal.Read.val_main_v20 (F := Ideal) (m ((c : Thread nD τ).loc main_arg3)) := by
  dsimp only [Gen.V, Gen.hostOps0]
  after_results
  rfl

/-- The fourth window's array holds the transposed root weights. -/
theorem wroot_eq (c : Dev nD) :
    (V m c main_v21 : S64x64.Idx → EReal)
      = Cert.ReferenceIdeal.Read.val_main_v25 (F := Ideal) (m ((c : Thread nD τ).loc main_arg5)) := by
  dsimp only [Gen.V, Gen.hostOps0]
  after_results
  rfl

/-- The fifth window's array holds the bias as a row: its entry (0, q) is the bias's entry `q`. -/
theorem bias_eq (c : Dev nD) (q : Fin 64) :
    (V m c main_v22 : S1x64.Idx → EReal) (ix2 (0 : Fin 1) q) = m ((c : Thread nD τ).loc main_arg4) (ix1 q) := by
  have e : (V m c main_v22 : S1x64.Idx → EReal)
      = shapeCast S1x64 (m ((c : Thread nD τ).loc main_arg4)) shapeCasts_S64_S1x64 := by
    dsimp only [Gen.V, Gen.hostOps0]
    after_results
    rfl
  rw [e]
  exact shapeCast_apply (m ((c : Thread nD τ).loc main_arg4)) shapeCasts_S64_S1x64 (ix2 (0 : Fin 1) q) (ix1 q)
    (by show (S64.rowMajor (ix1 q)).val = (S1x64.rowMajor (ix2 (0 : Fin 1) q)).val
        rewrite [Shape.rowMajor_val_one, Shape.rowMajor_val_two]; show q.val = 0 * 64 + q.val; omega)

end Cert.KernelIdeal.HostPrefix

end
-- ==== Proof.lean ====
/-
  A graph-convolution layer: the blocked kernel against the plain formula.

  Both programs first build, by the same operations, the aggregated messages `agg` — every edge gathers its
  source node's feature row, scales it by the edge's weight, and the scaled rows are summed into their
  destination nodes. The reference then evaluates `agg · W_relᵀ + b + x · W_rootᵀ` over the whole
  [155648, 64] arrays. The kernel walks 19 blocks of 8192 rows; on each it multiplies the block of `agg` by
  `W_relᵀ` and the block of `x` by `W_rootᵀ` on the matrix unit, adds the two products and then the bias row.

  Over the extended reals a product accumulated from zero is the plain sum over the 64 input channels and the
  narrowing of the matrix unit's operands changes nothing, so at node `r`, channel `j` the kernel's value is
  `(∑ₖ agg[r,k]·W_rel[j,k] + ∑ₖ x[r,k]·W_root[j,k]) + b[j]` and the reference's is
  `(∑ₖ agg[r,k]·W_rel[j,k] + b[j]) + ∑ₖ x[r,k]·W_root[j,k]`. The two differ only in the order in which three
  extended reals are added, and addition there is commutative and associative (infinities included), so the
  inputs' finiteness is never used. The aggregation itself is never opened: it is one function of the
  arguments, the same on both sides.

  The modules: `Combine` states the layer as one function of whole arrays and the regrouping; `RefValue` reads
  the reference's last stage as that function; `BlockValue` reads one stored block index by index;
  `ArrayValue` goes from the 19 row blocks to the whole output array; `HostPrefix` says what the kernel's
  windows find in their arrays. The three frame claims are the generated frames; nothing was rewritten when
  the kernel was idealized, so the idealization claim is trivial.
-/
import proofs.«176338_j63651415327483_1_alg».proof.Defs
import proofs.«176338_j63651415327483_1_alg».proof.Proof.Gen.Kernel
import proofs.«176338_j63651415327483_1_alg».proof.Proof.Gen.Kernel.Skeleton
import proofs.«176338_j63651415327483_1_alg».proof.Proof.Gen.Kernel.Launch
import proofs.«176338_j63651415327483_1_alg».proof.Proof.Gen.Kernel.Points
import proofs.«176338_j63651415327483_1_alg».proof.Proof.Gen.Kernel.Frame
import proofs.«176338_j63651415327483_1_alg».proof.Proof.Gen.KernelIdeal
import proofs.«176338_j63651415327483_1_alg».proof.Proof.Gen.KernelIdeal.Skeleton
import proofs.«176338_j63651415327483_1_alg».proof.Proof.Gen.KernelIdeal.Launch
import proofs.«176338_j63651415327483_1_alg».proof.Proof.Gen.KernelIdeal.Points
import proofs.«176338_j63651415327483_1_alg».proof.Proof.Gen.KernelIdeal.Frame
import proofs.«176338_j63651415327483_1_alg».proof.Proof.Gen.ReferenceIdeal
import proofs.«176338_j63651415327483_1_alg».proof.Proof.Gen.Pre_finite_inputs
import proofs.«176338_j63651415327483_1_alg».proof.Proof.Gen.KernelIdeal.Value
import proofs.«176338_j63651415327483_1_alg».proof.Proof.Gen.ReferenceIdeal.Run
import proofs.«176338_j63651415327483_1_alg».proof.Proof.Gen.ReferenceIdeal.Read
import proofs.«176338_j63651415327483_1_alg».proof.Proof.Combine
import proofs.«176338_j63651415327483_1_alg».proof.Proof.RefValue
import proofs.«176338_j63651415327483_1_alg».proof.Proof.ArrayValue
import proofs.«176338_j63651415327483_1_alg».proof.Proof.HostPrefix
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's output function, stated over the arrays its windows find, is `combine` of the aggregated
    messages, the node features, the two transposed weight matrices and the bias — each as the reference's own
    stage of the arguments. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.ArrayValue.result m c
      = Cert.GraphConv.combine
          (Cert.ReferenceIdeal.Read.val_main_v19 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (m ((c : Thread Cert.KernelIdeal.nD Cert.KernelIdeal.τ).loc Cert.KernelIdeal.main_arg0))
          (Cert.ReferenceIdeal.Read.val_main_v20 (F := Ideal)
            (m ((c : Thread Cert.KernelIdeal.nD Cert.KernelIdeal.τ).loc Cert.KernelIdeal.main_arg3)))
          (Cert.ReferenceIdeal.Read.val_main_v25 (F := Ideal)
            (m ((c : Thread Cert.KernelIdeal.nD Cert.KernelIdeal.τ).loc Cert.KernelIdeal.main_arg5)))
          (fun q => m ((c : Thread Cert.KernelIdeal.nD Cert.KernelIdeal.τ).loc Cert.KernelIdeal.main_arg4) (ix1 q)) := by
  unfold Cert.KernelIdeal.ArrayValue.result
  rw [Cert.KernelIdeal.HostPrefix.agg_eq m c, Cert.KernelIdeal.Gen.V_main_arg0 m c,
    Cert.KernelIdeal.HostPrefix.wrel_eq m c, Cert.KernelIdeal.HostPrefix.wroot_eq m c]
  refine congrArg (Cert.GraphConv.combine _ _ _ _) (funext fun q => ?_)
  exact Cert.KernelIdeal.HostPrefix.bias_eq m c q

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, the kernel with its output array at `combine`
    of the stages of its arguments, the reference with its result at `combine` of the same stages of its own: one
    function of equal arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v27_eq, Cert.ReferenceIdeal.RefValue.result_eq, a0, a1, a2, a3, a4, a5]
  exact (kernel_result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
